-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S2x8x128 : Shape := ⟨3, ![2, 8, 128]⟩
abbrev S1024x1024 : Shape := ⟨2, ![1024, 1024]⟩
abbrev S1x8x128 : Shape := ⟨3, ![1, 8, 128]⟩
abbrev S8x128 : Shape := ⟨2, ![8, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x8x128, .f32⟩
  | .local _ .vmem, ⟨5, _⟩ => ⟨S1x8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  reducesTo_S8192_S_d0 : S8192.ReducesTo [0] S_

variable [Facts₀]

class Facts : Prop extends Facts₀ where

variable [Facts]
-- ==== Proof.KernelCases.lean ====
import proofs.«131575_j35785667510424_2_alg».proof.Proof.Gen.KernelIdeal.Frame
import Idealize.ShloMosaic.Lib.Pipeline.Value
import Idealize.ShloMosaic.Lib.Tactic

/-!
# The three kinds of grid step

A step is a core's first (it stores the zero block, then accumulates into it), a middle one (it accumulates into what
the step before left), or a core's last (it accumulates, then scales what it has just stored).  In each case the block
left in the output's buffer is the corresponding composition of the body's stored values.
-/

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

/-- Offsets that are all zero, at rank 3 and at rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A middle step: the accumulating store over what the step before left. -/
theorem out_B (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x8x128 .f32) (h4 : a4.IsWhole)
    (hc0 : ¬cond0_0 i) (hc1 : ¬cond0_1 i) (x0 x1 : Vec F S1024x1024 .f32) (xo : Vec F S1x8x128 .f32) :
    out0_B_2 c i a2 h2 a3 h3 a4 h4 hc0 hc1 x0 x1 xo = k0_pay2 x0 x1 xo := by
  unfold out0_B_2
  rw [View.read_writes_eq_canon _ _ _ (cover0_B_2 c i a2 h2 a3 h3 a4 h4 hc0 hc1 x0 x1 xo)]
  unfold kernelRun0_B
  dsimp only
  rw [View.canon_unit_zero hz3]
  simp only [View.readAt_eq_ld, h2.read_unread, h3.read_unread, h4.read_unread, View.ld_unit_zero (S := S1024x1024) hz2,
    View.ld_unit_zero (S := S1x8x128) hz3]

/-- A core's first step: the accumulating store over the zero block just stored. -/
theorem out_A (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x8x128 .f32) (h4 : a4.IsWhole)
    (hc0 : cond0_0 i) (hc1 : ¬cond0_1 i) (x0 x1 : Vec F S1024x1024 .f32) :
    out0_A_2 c i a2 h2 a3 h3 a4 h4 hc0 hc1 x0 x1 = k0_pay2 x0 x1 (k0_pay1 (F := F)) := by
  unfold out0_A_2
  rw [View.read_writes_eq_canon _ _ _ (cover0_A_2 c i a2 h2 a3 h3 a4 h4 hc0 hc1 x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, View.ld_unit_zero (S := S1024x1024) hz2,
    View.ld_unit_zero (S := S1x8x128) hz3]

/-- A core's last step: the scaling of what the accumulating store has just left. -/
theorem out_C (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x8x128 .f32) (h4 : a4.IsWhole)
    (hc0 : ¬cond0_0 i) (hc1 : cond0_1 i) (x0 x1 : Vec F S1024x1024 .f32) (xo : Vec F S1x8x128 .f32) :
    out0_C_2 c i a2 h2 a3 h3 a4 h4 hc0 hc1 x0 x1 xo = k0_pay3 (k0_pay2 x0 x1 xo) := by
  unfold out0_C_2
  rw [View.read_writes_eq_canon _ _ _ (cover0_C_2 c i a2 h2 a3 h3 a4 h4 hc0 hc1 x0 x1 xo)]
  unfold kernelRun0_C
  dsimp only
  sl_unfold_words
  rw [View.canon_cons_unit_zero (S := S1x8x128) hz3, View.readCov_unit_zero (S := S1x8x128) _ hz3]
  simp only [View.readAt_eq_ld, h2.read_unread, h3.read_unread, h4.read_unread, View.ld_unit_zero (S := S1024x1024) hz2,
    View.ld_unit_zero (S := S1x8x128) hz3]

end Cert.KernelIdeal.Cases

end
-- ==== Proof.KernelPayload.lean ====
import proofs.«131575_j35785667510424_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# What one grid step computes, entry by entry

The step's two input blocks are 1024 rows of 1024 entries of each array.  For each row the body forms the dot product
and the two sums of squares along the row, clamps the two square roots from below, and divides the dot product by
the product of the two clamped norms; it adds these 1024 quotients and adds the total to every entry of the (8, 128)
accumulator block.  The first step of a core starts from the zero block; the last one scales the block by `2⁻¹³`.
-/

noncomputable section

namespace Cert.KernelIdeal.Payload

open Cert.KernelIdeal Cert.KernelIdeal.Gen Idealize.ShloMosaic Idealize.ShloMosaic.ValueIdx

variable {α : Type}

/-! ## The layout and reduction steps, read at an index -/

/-- The sum along a row of a 1024 × 1024 block. -/
theorem laneSum_apply (v : FVec Ideal S1024x1024 .f32) (h : S1024x1024.Reduces [1] S1024) (hφ : FKind.Formats .f32)
    (hacc : (0x00000000#32 : BitVec 32) = 0x00000000#32) (r : Fin 1024) :
    multiReduction .add [1] S1024 v 0x00000000#32 h hφ hacc (ix1 r) = ∑ k : Fin 1024, v (ix2 r k) := by
  refine (Ideal.multiReduction_add_single v _ h hφ hacc (ix1 r)).trans ?_
  exact Finset.sum_congr rfl fun k _ => congrArg v (funext fun a => Fin.ext (by match a with | ⟨0, _⟩ => rfl | ⟨1, _⟩ => rfl))

/-- A vector of 1024 entries viewed as a column: entry `(r, 0)` is entry `r`. -/
theorem column_apply (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_one, Shape.rowMajor_val_two]
    show r.val = r.val * 1 + u.val
    omega)

/-- The sum down a column of 1024 entries. -/
theorem columnSum_apply (v : FVec Ideal S1024x1 .f32) (h : S1024x1.Reduces [0] S1) (hφ : FKind.Formats .f32)
    (hacc : (0x00000000#32 : BitVec 32) = 0x00000000#32) (u : Fin 1) :
    multiReduction .add [0] S1 v 0x00000000#32 h hφ hacc (ix1 u) = ∑ r : Fin 1024, v (ix2 r u) := by
  refine (Ideal.multiReduction_add_single v _ h hφ hacc (ix1 u)).trans ?_
  exact Finset.sum_congr rfl fun k _ => congrArg v (funext fun a => Fin.ext (by match a with | ⟨0, _⟩ => rfl | ⟨1, _⟩ => rfl))

/-- One value spread over an (8, 128) block. -/
theorem spread_apply (v : S1x1.Idx → α) (h : S1x1.Broadcasts S8x128) (a : Fin 8) (b : Fin 128) :
    broadcastTo S8x128 v h (ix2 a b) = v (ix2 (0 : Fin 1) (0 : Fin 1)) :=
  broadcastTo_apply v h _ _ fun c => match c with
    | ⟨0, _⟩ => by show 0 = if (1 : Nat) = 1 then 0 else _; rw [if_pos rfl]
    | ⟨1, _⟩ => by show 0 = if (1 : Nat) = 1 then 0 else _; rw [if_pos rfl]

/-! ## One row's quotient -/

/-- The clamp. -/
abbrev epsE : EReal := Ideal.ofBits .f32 0x2B8CBCCC#32

/-- The column of the 1024 row quotients of a step, as the body spells it. -/
def rowQuot (x0 x1 : Vec Ideal S1024x1024 .f32) : FVec Ideal S1024x1 .f32 :=
  divf (shapeCast S1024x1 (multiReduction .add [1] S1024 (mulf x0 x1) 0x00000000#32 reduces_S1024x1024_S1024 (.inl rfl) rfl) shapeCasts_S1024_S1024x1)
    (mulf
      (maximumf (sqrt (shapeCast S1024x1 (multiReduction .add [1] S1024 (mulf x0 x0) 0x00000000#32 reduces_S1024x1024_S1024 (.inl rfl) rfl) shapeCasts_S1024_S1024x1))
        (broadcast S1024x1 (Scalar.ofBits (F := Ideal) .f32 0x2B8CBCCC#32)))
      (maximumf (sqrt (shapeCast S1024x1 (multiReduction .add [1] S1024 (mulf x1 x1) 0x00000000#32 reduces_S1024x1024_S1024 (.inl rfl) rfl) shapeCasts_S1024_S1024x1))
        (broadcast S1024x1 (Scalar.ofBits (F := Ideal) .f32 0x2B8CBCCC#32))))

/-- Row `r`'s quotient: the row's dot product over the product of the two clamped norms. -/
def quot (x0 x1 : Vec Ideal S1024x1024 .f32) (r : Fin 1024) : EReal :=
  Ideal.div (∑ k : Fin 1024, x0 (ix2 r k) * x1 (ix2 r k))
    (max (Ideal.sqrt (∑ k : Fin 1024, x0 (ix2 r k) * x0 (ix2 r k))) epsE
      * max (Ideal.sqrt (∑ k : Fin 1024, x1 (ix2 r k) * x1 (ix2 r k))) epsE)

theorem rowQuot_apply (x0 x1 : Vec Ideal S1024x1024 .f32) (r : Fin 1024) (u : Fin 1) :
    rowQuot x0 x1 (ix2 r u) = quot x0 x1 r := by
  unfold rowQuot quot
  show Ideal.div (shapeCast S1024x1 _ _ (ix2 r u))
      (max (Ideal.sqrt (shapeCast S1024x1 _ _ (ix2 r u))) epsE * max (Ideal.sqrt (shapeCast S1024x1 _ _ (ix2 r u))) epsE) = _
  rw [column_apply, column_apply, column_apply, laneSum_apply, laneSum_apply, laneSum_apply]
  rfl

/-- The sum of a step's 1024 row quotients. -/
def stepSum (x0 x1 : Vec Ideal S1024x1024 .f32) : EReal := ∑ r : Fin 1024, quot x0 x1 r

/-! ## The three stored values -/

/-- The zero block. -/
theorem pay1_apply (y : S1x8x128.Idx) : k0_pay1 (F := Ideal) y = 0 := by
  obtain ⟨u, a, b, rfl⟩ : ∃ (u : Fin 1) (a : Fin 8) (b : Fin 128), y = ix3 u a b := ⟨y 0, y 1, y 2, eq_ix3 y⟩
  unfold k0_pay1
  refine (shapeCast_ab_1ab_apply _ _ u a b).trans ?_
  exact Ideal.ofBits_zero_f32

/-- The accumulating store: every entry of the block gains the step's sum. -/
theorem pay2_apply (x0 x1 : Vec Ideal S1024x1024 .f32) (xo : Vec Ideal S1x8x128 .f32) (y : S1x8x128.Idx) :
    k0_pay2 (F := Ideal) x0 x1 xo y = xo y + stepSum x0 x1 := by
  obtain ⟨u, a, b, rfl⟩ : ∃ (u : Fin 1) (a : Fin 8) (b : Fin 128), y = ix3 u a b := ⟨y 0, y 1, y 2, eq_ix3 y⟩
  obtain rfl : u = 0 := Subsingleton.elim _ _
  have e : k0_pay2 (F := Ideal) x0 x1 xo
      = shapeCast S1x8x128 (addf (shapeCast S8x128 xo shapeCasts_S1x8x128_S8x128)
          (broadcastTo S8x128 (shapeCast S1x1 (shapeCast S1x1
            (multiReduction .add [0] S1 (rowQuot x0 x1) 0x00000000#32 reduces_S1024x1_S1 (.inl rfl) rfl)
            shapeCasts_S1_S1x1) shapeCasts_S1x1_S1x1) broadcasts_S1x1_S8x128)) shapeCasts_S8x128_S1x8x128 := rfl
  rw [e]
  refine (shapeCast_ab_1ab_apply _ _ 0 a b).trans ?_
  show shapeCast S8x128 xo _ (ix2 a b) + broadcastTo S8x128 _ _ (ix2 a b) = _
  rw [shapeCast_1ab_ab_apply, spread_apply, shapeCast_self, shapeCast_a_1a_apply, columnSum_apply]
  unfold stepSum
  simp only [rowQuot_apply]

/-- The final scaling. -/
theorem pay3_apply (xo : Vec Ideal S1x8x128 .f32) (y : S1x8x128.Idx) :
    k0_pay3 (F := Ideal) xo y = xo y * Ideal.ofBits .f32 0x39000000#32 := by
  obtain ⟨u, a, b, rfl⟩ : ∃ (u : Fin 1) (a : Fin 8) (b : Fin 128), y = ix3 u a b := ⟨y 0, y 1, y 2, eq_ix3 y⟩
  obtain rfl : u = 0 := Subsingleton.elim _ _
  unfold k0_pay3
  refine (shapeCast_ab_1ab_apply _ _ 0 a b).trans ?_
  show shapeCast S8x128 xo _ (ix2 a b) * Ideal.ofBits .f32 0x39000000#32 = _
  rw [shapeCast_1ab_ab_apply]

end Cert.KernelIdeal.Payload

end
-- ==== Proof.RowAlgebra.lean ====
import Idealize.ShloMosaic.PureOps.Ideal
import Idealize.ShloMosaic.PureOps.Ideal.Laws
import Idealize.ShloMosaic.Lib.ValueIdx

/-!
# The mean of row cosines, over the reals

Every entry of both arrays is a real number, so every quantity either program forms is a real number, and the two
programs differ only in where the division by the two clamped norms sits and in how the 8192 rows are grouped.

* One row.  For rows `q p : K → ℝ` and a clamp `e > 0` put `nrm e q = max (√(∑ₖ qₖ²)) e > 0`.  One program forms
  `(∑ₖ qₖ pₖ) / (nrm e q · nrm e p)`, the other `∑ₖ (qₖ / nrm e q) · (pₖ / nrm e p)`; both are `rowCos e q p`, the second
  because a positive real constant can be taken out of a finite real sum.
* All rows.  One program adds the 8192 row values, eight groups of 1024 rows at a time, four groups into each of two
  partial sums, scales each partial sum by `2⁻¹³` and adds the two; the other adds all 8192 row values and divides by
  `8192 = 2¹³`.  Over the reals these are the same number.
-/

noncomputable section

namespace Cert.CosMean

open Idealize.ShloMosaic

/-! ## The three constants -/

/-- The pattern of the clamp denotes a positive real: `9223372 · 2⁻⁶³`. -/
theorem ofBits_eps : Ideal.ofBits .f32 0x2B8CBCCC#32 = (((9223372 : ℝ) * (2 : ℝ) ^ (-63 : ℤ) : ℝ) : EReal) := by
  simp [Ideal.ofBits, Ideal.ieee, -EReal.coe_mul]

/-- The clamp as a real number. -/
def epsR : ℝ := (9223372 : ℝ) * (2 : ℝ) ^ (-63 : ℤ)

theorem epsR_pos : 0 < epsR := by unfold epsR; positivity

theorem ofBits_eps' : Ideal.ofBits .f32 0x2B8CBCCC#32 = (epsR : EReal) := ofBits_eps

/-- `8192.0` denotes `8192`. -/
theorem ofBits_8192 : Ideal.ofBits .f32 0x46000000#32 = ((8192 : ℝ) : EReal) := by
  simp [Ideal.ofBits, Ideal.ieee, -EReal.coe_mul]; norm_num

/-- `2⁻¹³` denotes `1 / 8192` exactly. -/
theorem ofBits_inv8192 : Ideal.ofBits .f32 0x39000000#32 = ((1 / 8192 : ℝ) : EReal) := by
  simp [Ideal.ofBits, Ideal.ieee, -EReal.coe_mul]; norm_num

/-! ## Finite sums of reals inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the indices of a one-axis shape is the sum over the axis. -/
def idx1Equiv (n : ℕ) : Fin n ≃ (⟨1, ![n]⟩ : Shape).Idx where
  toFun := ValueIdx.ix1
  invFun j := j 0
  left_inv _ := rfl
  right_inv j := (ValueIdx.eq_ix1 j).symm

theorem sum_idx1 {M : Type*} [AddCommMonoid M] {n : ℕ} (f : (⟨1, ![n]⟩ : Shape).Idx → M) :
    ∑ j, f j = ∑ r : Fin n, f (ValueIdx.ix1 r) :=
  (Equiv.sum_comp (idx1Equiv n) f).symm

/-! ## One row -/

section Row

variable {K : Type*} [Fintype K]

/-- The clamped Euclidean norm of a row. -/
def nrm (e : ℝ) (q : K → ℝ) : ℝ := max (Real.sqrt (∑ k, q k * q k)) e

theorem nrm_pos {e : ℝ} (he : 0 < e) (q : K → ℝ) : 0 < nrm e q := lt_max_of_lt_right he

/-- The cosine of two rows, with clamped norms. -/
def rowCos (e : ℝ) (q p : K → ℝ) : ℝ := (∑ k, q k * p k) / (nrm e q * nrm e p)

/-- A real row's sum of squares is a nonnegative real, its extended-real square root the real one, and the maximum
    with the clamp the clamped norm. -/
theorem clamp_sqrt_coe (e : ℝ) (q : K → ℝ) :
    max (Ideal.sqrt (∑ k, (q k : EReal) * (q k : EReal))) (e : EReal) = (nrm e q : EReal) := by
  have h0 : ¬ (∑ k, q k * q k) < 0 := not_lt.mpr (Finset.sum_nonneg fun k _ => mul_self_nonneg (q k))
  simp only [← EReal.coe_mul, ← coe_sum]
  rw [Ideal.sqrt_coe, if_neg h0]
  exact (EReal.coe_strictMono.monotone.map_max).symm

/-- The quotient of the row's dot product by the product of the two clamped norms. -/
theorem quot_of_sums {e : ℝ} (he : 0 < e) (q p : K → ℝ) :
    Ideal.div (∑ k, (q k : EReal) * (p k : EReal))
        (max (Ideal.sqrt (∑ k, (q k : EReal) * (q k : EReal))) (e : EReal)
          * max (Ideal.sqrt (∑ k, (p k : EReal) * (p k : EReal))) (e : EReal))
      = (rowCos e q p : EReal) := by
  rw [clamp_sqrt_coe, clamp_sqrt_coe, ← EReal.coe_mul]
  simp only [← EReal.coe_mul, ← coe_sum]
  rw [Ideal.div_coe (ne_of_gt (mul_pos (nrm_pos he q) (nrm_pos he p))), ← EReal.coe_mul]
  unfold rowCos
  rw [mul_one_div]

/-- The dot product of the two rows each divided by its clamped norm: the positive constants leave the sum. -/
theorem sum_of_quots {e : ℝ} (he : 0 < e) (q p : K → ℝ) :
    ∑ k, Ideal.div (q k : EReal) (max (Ideal.sqrt (∑ k, (q k : EReal) * (q k : EReal))) (e : EReal))
          * Ideal.div (p k : EReal) (max (Ideal.sqrt (∑ k, (p k : EReal) * (p k : EReal))) (e : EReal))
      = (rowCos e q p : EReal) := by
  rw [clamp_sqrt_coe, clamp_sqrt_coe]
  have hq := ne_of_gt (nrm_pos he q)
  have hp := ne_of_gt (nrm_pos he p)
  simp only [Ideal.div_coe hq, Ideal.div_coe hp, ← EReal.coe_mul, ← coe_sum]
  refine congrArg _ ?_
  unfold rowCos
  rw [Finset.sum_div]
  refine Finset.sum_congr rfl fun k _ => ?_
  field_simp

end Row

/-! ## All rows -/

/-- A sum over `B · n` consecutive indices, taken `B` at a time. -/
theorem sum_range_blocks (f : ℕ → ℝ) (B : ℕ) :
    ∀ n, ∑ j ∈ Finset.range (B * n), f j = ∑ t ∈ Finset.range n, ∑ r ∈ Finset.range B, f (B * t + r)
  | 0 => by simp
  | n + 1 => by rw [Nat.mul_succ, Finset.sum_range_add, sum_range_blocks f B n, Finset.sum_range_succ]

/-- The sum of the row values of the `t`-th group of 1024 rows, as a real and as formed on the extended reals. -/
def grpR (f : ℕ → ℝ) (t : ℕ) : ℝ := ∑ r ∈ Finset.range 1024, f (1024 * t + r)

def grp (f : ℕ → ℝ) (t : ℕ) : EReal := ∑ r : Fin 1024, ((f (1024 * t + r.val) : ℝ) : EReal)

theorem grp_coe (f : ℕ → ℝ) (t : ℕ) : grp f t = (grpR f t : EReal) := by
  unfold grp grpR
  rw [← coe_sum, Fin.sum_univ_eq_sum_range (fun r => f (1024 * t + r)) 1024]

/-- Two partial sums of four groups each, scaled by `1/8192` and added, are the sum of all 8192 row values divided
    by `8192`. -/
theorem scaled_halves_eq_mean (f : ℕ → ℝ) :
    (grp f 0 + grp f 1 + grp f 2 + grp f 3) * ((1 / 8192 : ℝ) : EReal)
        + (grp f 4 + grp f 5 + grp f 6 + grp f 7) * ((1 / 8192 : ℝ) : EReal)
      = Ideal.div (∑ j : Fin 8192, ((f j.val : ℝ) : EReal)) ((8192 : ℝ) : EReal) := by
  have h8 : ∑ j ∈ Finset.range 8192, f j = ∑ t ∈ Finset.range 8, grpR f t := sum_range_blocks f 1024 8
  rw [Ideal.div_coe (by norm_num : (8192 : ℝ) ≠ 0), ← coe_sum, Fin.sum_univ_eq_sum_range (fun j => f j) 8192, h8]
  simp only [grp_coe, ← EReal.coe_add, ← EReal.coe_mul]
  refine congrArg _ ?_
  simp only [Finset.sum_range_succ, Finset.sum_range_zero, zero_add]
  ring

end Cert.CosMean

end
-- ==== Proof.KernelAccum.lean ====
import proofs.«131575_j35785667510424_2_alg».proof.Proof.KernelCases
import proofs.«131575_j35785667510424_2_alg».proof.Proof.KernelPayload
import proofs.«131575_j35785667510424_2_alg».proof.Proof.RowAlgebra
import proofs.«131575_j35785667510424_2_alg».proof.Proof.Gen.KernelIdeal.Frame
import Idealize.ShloMosaic.Lib.Pipeline.Value
import Idealize.ShloMosaic.Lib.StableHlo.Run
import Idealize.ShloMosaic.Lib.Tactic

/-!
# The accumulator, the result array and the final addition

Every entry of a core's (8, 128) accumulator block holds the same number.  After step `n` it is `accAt n`: zero plus
the step sums of the core's steps so far, scaled by `2⁻¹³` after the core's fourth step.  The block is written back
after steps 3 and 7 only, to slabs 0 and 1 of the (2, 8, 128) result array, and these two blocks cover the array.  The
host then takes entry `(k, 0, 0)` of each slab and adds the two from zero.
-/

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Payload Idealize.ShloMosaic.ValueIdx

variable (m : (ℓ : Loc nD τ sig) → Buf (Elt Ideal) ℓ) (ρ : Dev nD → PrngReg)

/-- The sum of the 1024 row quotients of grid step `n`'s two input blocks. -/
def stepAt (c : Dev nD) (n : ℕ) : EReal :=
  if h : n < cfg0.N then stepSum (iblk m c 0 ⟨n, h⟩) (iblk m c 1 ⟨n, h⟩) else 0

/-- The common value of the accumulator block's entries after grid step `n`: a core's first step starts from zero,
    every step adds its sum, a core's last step scales by `2⁻¹³`. -/
def accAt (c : Dev nD) : ℕ → EReal
  | 0 => 0 + stepAt m c 0
  | n + 1 =>
    if (n + 1) % 4 = 0 then 0 + stepAt m c (n + 1)
    else if (n + 1) % 4 = 3 then (accAt c n + stepAt m c (n + 1)) * Ideal.ofBits .f32 0x39000000#32
    else accAt c n + stepAt m c (n + 1)

/-- Every entry of the accumulator block after step `n` is `accAt n`: by induction on the step. -/
theorem outsAt_eq (c : Dev nD) : ∀ (n : ℕ) (h : n < cfg0.N) (y : S1x8x128.Idx), outsAt0 m c n h y = accAt m c n
  | 0, h, y => by
    have z3 : ¬ (0 : ℕ) % 4 = 3 := by decide
    refine (congrFun ((outsAt0_A m c ⟨0, h⟩ rfl z3).trans (Cases.out_A ..)) y).trans ?_
    rw [pay2_apply, pay1_apply]
    simp only [accAt, stepAt, dif_pos h]
  | n + 1, h, y => by
    have hN : cfg0.N = 8 := N_0
    have ih := outsAt_eq c n (Nat.lt_of_succ_lt h)
    by_cases h0 : (n + 1) % 4 = 0
    · have h1 : ¬ (n + 1) % 4 = 3 := by omega
      refine (congrFun ((outsAt0_A m c ⟨n + 1, h⟩ h0 h1).trans (Cases.out_A ..)) y).trans ?_
      rw [pay2_apply, pay1_apply]
      simp only [accAt, if_pos h0, stepAt, dif_pos h]
    · by_cases h1 : (n + 1) % 4 = 3
      · refine (congrFun ((outsAt0_C m c ⟨n + 1, h⟩ h0 h1).trans (Cases.out_C ..)) y).trans ?_
        rw [pay3_apply, pay2_apply]
        show (outsAt0 m c n (Nat.lt_of_succ_lt h) y + _) * _ = _
        rw [ih]
        simp only [accAt, if_neg h0, if_pos h1, stepAt, dif_pos h]
      · refine (congrFun ((outsAt0_B m c ⟨n + 1, h⟩ h0 h1).trans (Cases.out_B ..)) y).trans ?_
        rw [pay2_apply]
        show outsAt0 m c n (Nat.lt_of_succ_lt h) y + _ = _
        rw [ih]
        simp only [accAt, if_neg h0, if_neg h1, stepAt, dif_pos h]

/-! ## The result array of the grid -/

/-- The (2, 8, 128) result array: slab `k` holds, in every entry, core `k`'s scaled partial sum. -/
def slabs (c : Dev nD) : Buf (Elt Ideal) ((c : Thread nD τ).loc main_v0) := fun i => accAt m c (4 * (i 0).val + 3)

/-- Where the output's blocks sit: block `(t / 4, 0, 0)` at step `t`. -/
theorem out_index : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- A write-back (steps 3 and 7) writes the block of `slabs` it covers. -/
theorem flushed_eq (c : Dev nD) (t : Fin cfg0.N) (hf : (cfg0.win 2).flush t = true) :
    (dats m 0 c).flushed 2 t = ((cfg0.win 2).blk t).view.read (Elt Ideal) (slabs m c) := by
  have h3 : t.val % 4 = 3 := (flush0_2 t).mp hf
  obtain ⟨e0, e1, e2⟩ := out_index t
  show (cfg0.win 2).cut (grid0.coords t) ((dats m 0 c).after 2 t) = _
  rw [after0_2]
  funext j
  show outsAt0 m c t.val t.isLt j = slabs m c (((cfg0.win 2).blk t).view.emb j)
  rw [outsAt_eq]
  unfold slabs
  have hj : (j 0).val < 1 := (j 0).isLt
  have he : ((((cfg0.win 2).blk t).view.emb j) 0).val = win0_2.index t (0 : Fin 3) * 1 + 1 * (j 0).val := rfl
  rw [he, e0]
  congr 1
  omega

/-- An index of the result array lies in step `t`'s block iff each coordinate lies in the block's range. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- The two write-backs cover the array, so it ends as `slabs`. -/
theorem final_slabs (c : Dev nD) : (dats m 0 c).arrAt 2 cfg0.N = slabs m c :=
  (dats m 0 c).arrAt_eq_of_cover 2 (slabs m c) (flushed_eq m c) fun i => by
    have hN : cfg0.N = 8 := N_0
    have hi0 : (i 0).val < 2 := (i 0).isLt
    have hi1 : (i 1).val < 8 := (i 1).isLt
    have hi2 : (i 2).val < 128 := (i 2).isLt
    refine ⟨⟨4 * (i 0).val + 3, by omega⟩, (flush0_2 _).mpr (by show (4 * (i 0).val + 3) % 4 = 3; omega), ?_⟩
    rw [mem_blk]
    obtain ⟨e0, e1, e2⟩ := out_index ⟨4 * (i 0).val + 3, by omega⟩
    intro a
    match a with
    | ⟨0, _⟩ => show win0_2.index _ (0 : Fin 3) * 1 ≤ (i 0).val ∧ (i 0).val < win0_2.index _ (0 : Fin 3) * 1 + 1; rw [e0]; dsimp only; omega
    | ⟨1, _⟩ => show win0_2.index _ (1 : Fin 3) * 8 ≤ (i 1).val ∧ (i 1).val < win0_2.index _ (1 : Fin 3) * 8 + 8; rw [e1]; omega
    | ⟨2, _⟩ => show win0_2.index _ (2 : Fin 3) * 128 ≤ (i 2).val ∧ (i 2).val < win0_2.index _ (2 : Fin 3) * 128 + 128; rw [e2]; omega

/-! ## The host operations after the grid -/

/-- The host operations after the grid, as one function of the result array: entry `(k, 0, 0)` of each slab, the two
    of them added from zero. -/
def tailOf (A : S2x8x128.Idx → EReal) : S_.Idx → EReal :=
  Host.reduceAdd (F := Ideal) (shapeCast S2 (extractStridedSlice S2x1x1 ![0, 0, 0] A slices_S2x8x128_S2x1x1_0_0_0) shapeCasts_S2x1x1_S2)
    (constant (F := Ideal) S_ .f32 0x00000000#32) reducesTo_S2_S_d0 h_S_

/-- The program's result is those operations applied to `slabs`. -/
theorem tail_eq (c : Dev nD) :
    Pipeline.afterTail₀ cfgs (dats m) 0 (V0 m) [hostOps1] c main_v3 = tailOf (slabs m c) := by
  unfold Pipeline.afterTail₀
  show StableHlo.after (hostOps1 (F := Ideal)) _ (Proc.devRef .tc main_v3) = _
  after_results
  have e : Pipeline.withArrays (cfgs 0).spec c (V0 m c) (fun w => (dats m 0 c).arrAt w (cfgs 0).N) (Proc.devRef .tc main_v0)
      = slabs m c := (Pipeline.withArrays_arr spec0 launch0.win.arr_inj c _ _ 2).trans (final_slabs m c)
  rw [e]
  rfl

/-- Read at its one index: zero plus the two slabs' first entries. -/
theorem tailOf_apply (A : S2x8x128.Idx → EReal) (i : S_.Idx) :
    tailOf A i = 0 + (A (ix3 (0 : Fin 2) (0 : Fin 8) (0 : Fin 128)) + A (ix3 (1 : Fin 2) (0 : Fin 8) (0 : Fin 128))) := by
  have e : ∀ k : Fin 2, shapeCast S2 (extractStridedSlice S2x1x1 ![0, 0, 0] A slices_S2x8x128_S2x1x1_0_0_0) shapeCasts_S2x1x1_S2 (ix1 k)
      = A (ix3 k (0 : Fin 8) (0 : Fin 128)) := fun k =>
    (shapeCast_apply _ shapeCasts_S2x1x1_S2 _ (ix3 k (0 : Fin 1) (0 : Fin 1)) (by
      rw [Shape.rowMajor_val_three, Shape.rowMajor_val_one]
      show (k.val * 1 + 0) * 1 + 0 = k.val
      omega)).trans
    (extractStridedSlice_apply _ A slices_S2x8x128_S2x1x1_0_0_0 _ (ix3 k (0 : Fin 8) (0 : Fin 128)) fun a => match a with
      | ⟨0, _⟩ => by show k.val = 0 + k.val; omega
      | ⟨1, _⟩ => rfl
      | ⟨2, _⟩ => rfl)
  unfold tailOf
  simp only [Host.reduceAdd, Ideal.hostReduceAdd_def]
  rw [Ideal.hostReduceAdd_total reducesTo_S2_S_d0 (fun b => b.elim0)]
  show Ideal.ofBits .f32 0x00000000#32 + _ = _
  rw [Ideal.ofBits_zero_f32, Cert.CosMean.sum_idx1, Fin.sum_univ_two, e, e]

/-! ## The run -/

/-- Every weakly fair execution ends with the result at `tailOf slabs` and the two arguments unchanged. -/
theorem run : θ_run defs (onTc (τ := τ) (main (F := Ideal))) ⟨m, fun _ => 0, ρ⟩ fun r => ∀ c : Dev nD,
      r.2.mem ((c : Thread nD τ).loc main_v3) = tailOf (slabs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Accum

end
-- ==== Proof.RefValue.lean ====
import proofs.«131575_j35785667510424_2_alg».proof.Proof.Gen.ReferenceIdeal.Read
import proofs.«131575_j35785667510424_2_alg».proof.Proof.RowAlgebra
import Idealize.ShloMosaic.Lib.ValueIdx

/-!
# The reference on arrays of real numbers

Row `r` of the reference's product array sums, along the row, the two entries each divided by its row's clamped
norm: the row's cosine.  The result is the sum of the 8192 cosines divided by `8192`.
-/

noncomputable section

namespace Cert.ReferenceIdeal.RefValue

open Cert.ReferenceIdeal Cert.ReferenceIdeal.Gen Cert.ReferenceIdeal.Read Idealize.ShloMosaic Idealize.ShloMosaic.ValueIdx
open Cert.CosMean

/-! ## Where each operation reads its operand -/

theorem at_v11 (r : Fin 8192) (k : Fin 1024) : idx_main_v11 (ix1 r) k = ix2 r k :=
  funext fun a => match a with | ⟨0, _⟩ => rfl | ⟨1, _⟩ => rfl
theorem at_v3 (r : Fin 8192) (k : Fin 1024) : idx_main_v3 (ix2 r k) = ix2 r (0 : Fin 1) :=
  funext fun a => match a with | ⟨0, _⟩ => rfl | ⟨1, _⟩ => rfl
theorem at_v8 (r : Fin 8192) (k : Fin 1024) : idx_main_v8 (ix2 r k) = ix2 r (0 : Fin 1) :=
  funext fun a => match a with | ⟨0, _⟩ => rfl | ⟨1, _⟩ => rfl
theorem at_call0_v2 (r : Fin 8192) : idx_main_call0_v2 (ix2 r (0 : Fin 1)) = ix1 r :=
  funext fun a => match a with | ⟨0, _⟩ => rfl
theorem at_call1_v2 (r : Fin 8192) : idx_main_call1_v2 (ix2 r (0 : Fin 1)) = ix1 r :=
  funext fun a => match a with | ⟨0, _⟩ => rfl
theorem at_call0_v1 (r : Fin 8192) (k : Fin 1024) : idx_main_call0_v1 (ix1 r) k = ix2 r k :=
  funext fun a => match a with | ⟨0, _⟩ => rfl | ⟨1, _⟩ => rfl
theorem at_call1_v1 (r : Fin 8192) (k : Fin 1024) : idx_main_call1_v1 (ix1 r) k = ix2 r k :=
  funext fun a => match a with | ⟨0, _⟩ => rfl | ⟨1, _⟩ => rfl

variable (q p : S8192x1024.Idx → ℝ)

/-- Row `r` of the summed product array is the row's cosine. -/
theorem row_value (r : Fin 8192) :
    val_main_v11 (F := Ideal) (fun i => (q i : EReal)) (fun i => (p i : EReal)) (ix1 r)
      = (rowCos epsR (fun k : Fin 1024 => q (ix2 r k)) (fun k : Fin 1024 => p (ix2 r k)) : EReal) := by
  rw [val_main_v11_apply]
  simp only [val_main_v10_apply, val_main_v4_apply, val_main_v9_apply, val_main_v3_apply, val_main_v8_apply,
    val_main_v2_apply, val_main_v7_apply, val_main_v0_apply, val_main_v5_apply, val_main_call0_v2_apply,
    val_main_call1_v2_apply, val_main_v1_apply, val_main_v6_apply, val_main_cst_apply, val_main_cst_0_apply,
    val_main_cst_1_apply, at_v11, at_v3, at_v8, at_call0_v2, at_call1_v2]
  rw [val_main_call0_v1_apply, val_main_call1_v1_apply]
  simp only [val_main_call0_v0_apply, val_main_call1_v0_apply, val_main_call0_cst_apply, val_main_call1_cst_apply,
    at_call0_v1, at_call1_v1, Ideal.mulf_def, Ideal.hostDivf_def, Ideal.maximumf_def, Ideal.hostUnary_sqrt_def,
    Ideal.ofBits_def, Ideal.ofBits_zero_f32, zero_add, ofBits_eps']
  exact sum_of_quots epsR_pos _ _

/-- The reference's result. -/
theorem result_value (i : S_.Idx) :
    val_main_v13 (F := Ideal) (fun i => (q i : EReal)) (fun i => (p i : EReal)) i
      = Ideal.div (∑ r : Fin 8192, (rowCos epsR (fun k : Fin 1024 => q (ix2 r k)) (fun k : Fin 1024 => p (ix2 r k)) : EReal))
          ((8192 : ℝ) : EReal) := by
  rw [val_main_v13_apply, val_main_v12_apply, sum_idx1]
  simp only [row_value, val_main_cst_2_apply, val_main_cst_3_apply, Ideal.hostDivf_def, Ideal.ofBits_def,
    Ideal.ofBits_zero_f32, zero_add, ofBits_8192]

end Cert.ReferenceIdeal.RefValue

end
-- ==== Proof.Finite.lean ====
import proofs.«131575_j35785667510424_2_alg».proof.Pre_finite_inputs
import proofs.«131575_j35785667510424_2_alg».proof.Proof.Gen.Pre_finite_inputs
import Idealize.ShloMosaic.Lib.ReduceAll
import Idealize.ShloMosaic.Lib.ValueIdx
import Idealize.ShloMosaic.PureOps.Ideal.Laws

/-!
# Finite inputs are arrays of real numbers

The precondition compares the absolute value of every entry of both arrays with `+∞` and asks that all the
comparisons hold.  On the extended reals `|x| < +∞` excludes exactly `x = ±∞`, so every entry is a real number.
-/

noncomputable section

namespace Cert.Pre_finite_inputs.Finite

open Cert.Pre_finite_inputs Cert.Pre_finite_inputs.Gen Idealize.ShloMosaic

instance : Subsingleton S_.Idx := ⟨fun a b => funext fun d => d.elim0⟩

/-- The pattern of `+∞`. -/
theorem ofBits_inf : Ideal.ofBits .f32 0x7F800000#32 = ⊤ := by simp [Ideal.ofBits, Ideal.ieee]

/-- An extended real whose absolute value is below `+∞` is a real. -/
theorem real_of_abs_lt_top (x : EReal) (h : max x (-x) < ⊤) : ∃ r : ℝ, x = r := by
  induction x using EReal.rec with
  | bot => simp at h
  | top => simp at h
  | coe r => exact ⟨r, rfl⟩

/-- One comparison that holds gives a real entry. -/
theorem real_of_cmp (x : EReal) (h : Ideal.cmp .olt (max x (-x)) (Ideal.ofBits .f32 0x7F800000#32) = 1#1) : ∃ r : ℝ, x = r := by
  rw [ofBits_inf] at h
  by_cases hlt : max x (-x) < ⊤
  · exact real_of_abs_lt_top x hlt
  · exfalso
    simp [Ideal.cmp, hlt] at h

theorem entries_real (x0 x1 : FVec Ideal S8192x1024 .f32) (h : fn (F := Ideal) x0 x1 = fun _ => 1#1) :
    (∀ i, ∃ r : ℝ, x0 i = r) ∧ (∀ i, ∃ r : ℝ, x1 i = r) := by
  have h0 := congrFun h ValueIdx.ix0
  dsimp only [fn] at h0
  obtain ⟨ha, hb⟩ := IntOp.andi_eq_one.1 h0
  refine ⟨fun i => ?_, fun i => ?_⟩
  · exact real_of_cmp (x0 i) (Host.reduce_andi_all _ _ _ _ _ ha i)
  · exact real_of_cmp (x1 i) (Host.reduce_andi_all _ _ _ _ _ hb i)

end Cert.Pre_finite_inputs.Finite

end
-- ==== Proof.Bridge.lean ====
import proofs.«131575_j35785667510424_2_alg».proof.Proof.KernelAccum
import proofs.«131575_j35785667510424_2_alg».proof.Proof.RefValue
import proofs.«131575_j35785667510424_2_alg».proof.Proof.Finite
import proofs.«131575_j35785667510424_2_alg».proof.Proof.RowAlgebra

/-!
# The two results are the same real number

On arrays of real numbers, grid step `n` reads rows `1024 n … 1024 n + 1023` of both arrays, and each row quotient
the body forms is that row's cosine; so step `n`'s sum is the sum of the cosines of the `n`-th group of rows.  Core 0
accumulates groups 0–3 and core 1 groups 4–7, each scaled by `2⁻¹³`; the host adds the two.  The reference adds all
8192 cosines and divides by `8192`.
-/

noncomputable section

open Idealize.ShloMosaic Idealize.ShloMosaic.TcCoe Idealize.SL.Sem

namespace Cert.KernelIdeal.Bridge

open Cert.KernelIdeal Cert.KernelIdeal.Gen Cert.KernelIdeal.Payload Cert.KernelIdeal.Accum Idealize.ShloMosaic.ValueIdx
open Cert.CosMean

variable (m : (ℓ : Loc nD τ sig) → Buf (Elt Ideal) ℓ)

/-- Row `n`'s cosine, for `n < 8192` (and `0` beyond). -/
def cosAt (q p : S8192x1024.Idx → ℝ) (n : ℕ) : ℝ :=
  if h : n < 8192 then rowCos epsR (fun k : Fin 1024 => q (ix2 (⟨n, h⟩ : Fin 8192) k)) (fun k : Fin 1024 => p (ix2 (⟨n, h⟩ : Fin 8192) k)) else 0

/-- Where the input blocks sit: block `(t, 0)` of each array at step `t`. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry `(r, k)` of step `t`'s block of the first array is entry `(1024 t + r, k)` of the array. -/
theorem block0_apply (c : Dev nD) (t : Fin cfg0.N) (r k : Fin 1024) (hr : 1024 * t.val + r.val < 8192) :
    (iblk m c 0 t : Vec Ideal S1024x1024 .f32) (ix2 r k)
      = m ((c : Thread nD τ).loc main_arg0) (ix2 (⟨1024 * t.val + r.val, hr⟩ : Fin 8192) k) := by
  obtain ⟨e0, e1, -, -⟩ := in_index t
  unfold iblk
  rw [View.read_apply]
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = 1024 * t.val + r.val; rw [e0]; omega
  | ⟨1, _⟩ => show win0_0.index t (1 : Fin 2) * 1024 + 1 * k.val = k.val; rw [e1]; omega

/-- The same for the second array. -/
theorem block1_apply (c : Dev nD) (t : Fin cfg0.N) (r k : Fin 1024) (hr : 1024 * t.val + r.val < 8192) :
    (iblk m c 1 t : Vec Ideal S1024x1024 .f32) (ix2 r k)
      = m ((c : Thread nD τ).loc main_arg1) (ix2 (⟨1024 * t.val + r.val, hr⟩ : Fin 8192) k) := by
  obtain ⟨-, -, e0, e1⟩ := in_index t
  unfold iblk
  rw [View.read_apply]
  show V m c main_arg1 (((cfg0.win 1).blk t).view.emb (ix2 r k)) = _
  rw [V_main_arg1]
  refine congrArg _ (funext fun a => Fin.ext ?_)
  match a with
  | ⟨0, _⟩ => show win0_1.index t (0 : Fin 2) * 1024 + 1 * r.val = 1024 * t.val + r.val; rw [e0]; omega
  | ⟨1, _⟩ => show win0_1.index t (1 : Fin 2) * 1024 + 1 * k.val = k.val; rw [e1]; omega

/-- On real arrays, step `n`'s sum is the sum of the cosines of the `n`-th group of 1024 rows. -/
theorem stepAt_eq (c : Dev nD) (q p : S8192x1024.Idx → ℝ)
    (hq : ∀ i, m ((c : Thread nD τ).loc main_arg0) i = (q i : EReal))
    (hp : ∀ i, m ((c : Thread nD τ).loc main_arg1) i = (p i : EReal)) (n : ℕ) (hn : n < 8) :
    stepAt m c n = grp (cosAt q p) n := by
  have hN : n < cfg0.N := lt_of_lt_of_eq hn N_0.symm
  unfold stepAt grp stepSum
  rw [dif_pos hN]
  refine Finset.sum_congr rfl fun r _ => ?_
  have hr : 1024 * n + r.val < 8192 := by have := r.isLt; omega
  unfold quot cosAt
  rw [dif_pos hr]
  simp only [block0_apply m c ⟨n, hN⟩ r _ hr, block1_apply m c ⟨n, hN⟩ r _ hr, hq, hp]
  rw [show Payload.epsE = (epsR : EReal) from ofBits_eps']
  exact quot_of_sums (K := Fin 1024) epsR_pos (fun k => q (ix2 (⟨1024 * n + r.val, hr⟩ : Fin 8192) k))
    (fun k => p (ix2 (⟨1024 * n + r.val, hr⟩ : Fin 8192) k))

theorem accAt_three (c : Dev nD) : accAt m c 3
    = (0 + stepAt m c 0 + stepAt m c 1 + stepAt m c 2 + stepAt m c 3) * Ideal.ofBits .f32 0x39000000#32 := rfl

theorem accAt_seven (c : Dev nD) : accAt m c 7
    = (0 + stepAt m c 4 + stepAt m c 5 + stepAt m c 6 + stepAt m c 7) * Ideal.ofBits .f32 0x39000000#32 := rfl

/-- Under the precondition the program's result is the reference's result of the same arrays. -/
theorem results_agree (c : Dev nD)
    (hpre : Cert.Pre_finite_inputs.fn (F := Ideal) (m ((c : Thread nD τ).loc main_arg0)) (m ((c : Thread nD τ).loc main_arg1)) = fun _ => 1#1) :
    Cert.ReferenceIdeal.Read.val_main_v13 (F := Ideal) (m ((c : Thread nD τ).loc main_arg0)) (m ((c : Thread nD τ).loc main_arg1))
      = tailOf (slabs m c) := by
  obtain ⟨h0, h1⟩ := Cert.Pre_finite_inputs.Finite.entries_real _ _ hpre
  choose q hq using h0
  choose p hp using h1
  funext i
  rw [show m ((c : Thread nD τ).loc main_arg0) = fun i => (q i : EReal) from funext hq,
    show m ((c : Thread nD τ).loc main_arg1) = fun i => (p i : EReal) from funext hp,
    Cert.ReferenceIdeal.RefValue.result_value, tailOf_apply]
  show _ = 0 + (accAt m c 3 + accAt m c 7)
  rw [accAt_three, accAt_seven]
  simp only [stepAt_eq m c q p hq hp _ (by decide : (0 : ℕ) < 8), stepAt_eq m c q p hq hp _ (by decide : (1 : ℕ) < 8),
    stepAt_eq m c q p hq hp _ (by decide : (2 : ℕ) < 8), stepAt_eq m c q p hq hp _ (by decide : (3 : ℕ) < 8),
    stepAt_eq m c q p hq hp _ (by decide : (4 : ℕ) < 8), stepAt_eq m c q p hq hp _ (by decide : (5 : ℕ) < 8),
    stepAt_eq m c q p hq hp _ (by decide : (6 : ℕ) < 8), stepAt_eq m c q p hq hp _ (by decide : (7 : ℕ) < 8),
    zero_add, ofBits_inv8192]
  rw [scaled_halves_eq_mean]
  refine congrArg (fun s => Ideal.div s ((8192 : ℝ) : EReal)) (Finset.sum_congr rfl fun j _ => ?_)
  unfold cosAt
  rw [dif_pos j.isLt]

end Cert.KernelIdeal.Bridge

end
-- ==== Proof.lean ====
/-
  The mean over 8192 rows of the cosine of two row vectors of 1024 entries, norms clamped from below.

  One program walks a (2, 4) grid: each of its eight steps takes 1024 rows of both arrays, forms for every row the dot
  product and the two sums of squares, divides the dot product by the product of the two clamped square roots, adds the
  1024 quotients into a per-core accumulator (reset at a core's first step, scaled by 2⁻¹³ after its last), and the
  host adds the two cores' scaled partial sums.  The other divides every entry by its row's clamped norm, multiplies
  the two arrays entry by entry, sums along rows, sums the 8192 row sums and divides by 8192.

  Under the precondition every entry is a real number (Proof/Finite.lean).  Then every clamped norm is a positive real,
  so it can be taken out of a row's sum, and each program's row value is the row's cosine (Proof/RowAlgebra.lean);
  grouping 8192 reals as 2 × 4 × 1024 and scaling each half by 2⁻¹³ = 1/8192 gives the mean (same file).  What one
  grid step stores is read entry by entry in Proof/KernelPayload.lean, the three kinds of step (first, middle, last
  of a core) in Proof/KernelCases.lean, the accumulator after every step, the result array and the host's final
  addition in Proof/KernelAccum.lean; the reference's value in Proof/RefValue.lean; Proof/Bridge.lean joins the two.
  No operation of the first program was rewritten when it was idealized, so the fourth claim is trivial.
-/
import proofs.«131575_j35785667510424_2_alg».proof.Defs
import proofs.«131575_j35785667510424_2_alg».proof.Proof.Gen.Kernel
import proofs.«131575_j35785667510424_2_alg».proof.Proof.Gen.Kernel.Skeleton
import proofs.«131575_j35785667510424_2_alg».proof.Proof.Gen.Kernel.Launch
import proofs.«131575_j35785667510424_2_alg».proof.Proof.Gen.Kernel.Points
import proofs.«131575_j35785667510424_2_alg».proof.Proof.Gen.Kernel.Frame
import proofs.«131575_j35785667510424_2_alg».proof.Proof.Gen.KernelIdeal
import proofs.«131575_j35785667510424_2_alg».proof.Proof.Gen.KernelIdeal.Skeleton
import proofs.«131575_j35785667510424_2_alg».proof.Proof.Gen.KernelIdeal.Launch
import proofs.«131575_j35785667510424_2_alg».proof.Proof.Gen.KernelIdeal.Points
import proofs.«131575_j35785667510424_2_alg».proof.Proof.Gen.KernelIdeal.Frame
import proofs.«131575_j35785667510424_2_alg».proof.Proof.Gen.ReferenceIdeal
import proofs.«131575_j35785667510424_2_alg».proof.Proof.Gen.Pre_finite_inputs
import proofs.«131575_j35785667510424_2_alg».proof.Proof.Gen.ReferenceIdeal.Run
import proofs.«131575_j35785667510424_2_alg».proof.Proof.Gen.ReferenceIdeal.Read
import proofs.«131575_j35785667510424_2_alg».proof.Proof.Bridge
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the mean of the row cosines of the (common) real arrays. -/
theorem algebraic : Cert.algebraic_KernelIdeal_ReferenceIdeal := by
  intro m ρ m' ρ' hpre hagree
  refine ⟨fun c => Cert.KernelIdeal.Accum.tailOf (Cert.KernelIdeal.Accum.slabs m c), Cert.KernelIdeal.Accum.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, (hagree c).1, (hagree c).2]
  exact Cert.KernelIdeal.Bridge.results_agree m c (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
